-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256x8 : Shape := ⟨2, ![256, 8]⟩
abbrev S2097152 : Shape := ⟨1, ![2097152]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256x8 : S_.BroadcastsInDim S256x8 (![] : Fin 0 → Fin S256x8.rank)
  reducesTo_S256x8_S_d0_1 : S256x8.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S256x8 .f32) (main_arg2 : IVec S2097152 32) (main_arg3 : FVec F S4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256x8 .f32 := Host.absf main_arg1
  let main_cst_0 : FVec F S_ .f32 := constant S_ .f32 0x7F800000#32
  let main_v5 : FVec F S256x8 .f32 := broadcastInDim S256x8 ![] bcast_S_S256x8 main_cst_0
  let main_v6 : IVec S256x8 1 := cmpf .olt main_v4 main_v5
  let main_c_1 : IVec S_ 1 := constantI S_ 1 1#1
  let main_v7 : IVec S_ 1 := (fun x v => Host.reduce IntOp.andi x v reducesTo_S256x8_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S256x8 : Shape := ⟨2, ![256, 8]⟩
abbrev S2097152 : Shape := ⟨1, ![2097152]⟩
abbrev S4096 : Shape := ⟨1, ![4096]⟩
abbrev S_ : Shape := ⟨0, ![]⟩
abbrev S2097152x1 : Shape := ⟨2, ![2097152, 1]⟩
abbrev S2097152x8 : Shape := ⟨2, ![2097152, 8]⟩
abbrev S4096x4096 : Shape := ⟨2, ![4096, 4096]⟩
abbrev S1x1x4096 : Shape := ⟨3, ![1, 1, 4096]⟩
abbrev S8192x4096 : Shape := ⟨2, ![8192, 4096]⟩
abbrev S1x4096 : Shape := ⟨2, ![1, 4096]⟩
abbrev S2048x512 : Shape := ⟨2, ![2048, 512]⟩
abbrev S1x2048 : Shape := ⟨2, ![1, 2048]⟩
abbrev S2048x2048 : Shape := ⟨2, ![2048, 2048]⟩

abbrev nBuf : Space → Nat
  | .hbm => 24
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S256x8, .f32⟩
  | .hbm, ⟨2, _⟩ => ⟨S2097152, .i32⟩
  | .hbm, ⟨3, _⟩ => ⟨S4096, .f32⟩
  | .hbm, ⟨4, _⟩ => ⟨S4096, .f32⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S2097152x8, .f32⟩
  | .hbm, ⟨14, _⟩ => ⟨S4096x4096, .f32⟩
  | .hbm, ⟨15, _⟩ => ⟨S4096x4096, .bf16⟩
  | .hbm, ⟨16, _⟩ => ⟨S1x1x4096, .f32⟩
  | .hbm, ⟨17, _⟩ => ⟨S4x2048x4096, .f32⟩
  | .hbm, ⟨18, _⟩ => ⟨S4x2048x4096, .f32⟩
  | .hbm, ⟨19, _⟩ => ⟨S4x2048x4096, .bf16⟩
  | .hbm, ⟨20, _⟩ => ⟨S8192x4096, .bf16⟩
  | .hbm, ⟨21, _⟩ => ⟨S1x4096, .f32⟩
  | .hbm, ⟨22, _⟩ => ⟨S8192x4096, .f32⟩
  | .hbm, ⟨23, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | .local _ .vmem, ⟨7, _⟩ => ⟨S2048x2048, .f32⟩
  | .local _ .vmem, ⟨8, _⟩ => ⟨S2048x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  bitsLt_bf16_f32 : FTy.bits .bf16 < FTy.bits .f32
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  shapeCasts_S4x2048x4096_S8192x4096 : S4x2048x4096.ShapeCasts S8192x4096
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S8192x4096_S4x2048x4096 : S8192x4096.ShapeCasts S4x2048x4096
  gather_S256x8_S2097152x1_S2097152x8_1_0_n_n_0_1_18_wf : GatherDims.WF S256x8 S2097152x1 S2097152x8 [1] [0] [] [0] [] 1 ![1, 8]
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S8192x4096.size a
  hwx0_3 : ∀ i : grid0.Coords, EltTy.bits .f32 = 32 ∨ (Rect.block (s := S8192x4096) S2048x2048.size (cc0_transform_3 i) (hinb0_3 i)).WholeWords (EltTy.packing .f32)

variable [Facts₀]

def gather_S256x8_S2097152x1_S2097152x8_1_0_n_n_0_1_18 : GatherDims S256x8 S2097152x1 S2097152x8 where
  offsetDims := [1]
  collapsedSliceDims := [0]
  operandBatchingDims := []
  startIndicesBatchingDims := []
  startIndexMap := [0]
  indexVectorDim := 1
  sliceSizes := ![1, 8]
  wf := gather_S256x8_S2097152x1_S2097152x8_1_0_n_n_0_1_18_wf
def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_v13) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S256x8 : Shape := ⟨2, ![256, 8]⟩
abbrev S2097152 : Shape := ⟨1, ![2097152]⟩
abbrev S4096 : Shape := ⟨1, ![4096]⟩
abbrev S_ : Shape := ⟨0, ![]⟩
abbrev S2097152x1 : Shape := ⟨2, ![2097152, 1]⟩
abbrev S2097152x8 : Shape := ⟨2, ![2097152, 8]⟩
abbrev S4096x4096 : Shape := ⟨2, ![4096, 4096]⟩
abbrev S1x1x4096 : Shape := ⟨3, ![1, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256x8, .f32⟩
  | .hbm, ⟨2, _⟩ => ⟨S2097152, .i32⟩
  | .hbm, ⟨3, _⟩ => ⟨S4096, .f32⟩
  | .hbm, ⟨4, _⟩ => ⟨S4096, .f32⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S2097152x8, .f32⟩
  | .hbm, ⟨14, _⟩ => ⟨S4096x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256x8_S2097152x1_S2097152x8_1_0_n_n_0_1_18_wf : GatherDims.WF S256x8 S2097152x1 S2097152x8 [1] [0] [] [0] [] 1 ![1, 8]
  dot_S4x2048x4096_S4096x4096_S4x2048x4096_2_1_01_0_n_n_wf : DotDims.WF S4x2048x4096 S4096x4096 S4x2048x4096 [2] [1] [0, 1] [0] [] []

variable [Facts₀]

def gather_S256x8_S2097152x1_S2097152x8_1_0_n_n_0_1_18 : GatherDims S256x8 S2097152x1 S2097152x8 where
  offsetDims := [1]
  collapsedSliceDims := [0]
  operandBatchingDims := []
  startIndicesBatchingDims := []
  startIndexMap := [0]
  indexVectorDim := 1
  sliceSizes := ![1, 8]
  wf := gather_S256x8_S2097152x1_S2097152x8_1_0_n_n_0_1_18_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves behind, as values.

  The body writes the accumulator with one store that covers it whole (at the first step of a reduction after first
  storing the zero block, which that store then overwrites) and, at the last step, the output block with one covering
  store. So the accumulator after a step is the accumulation's value on the two input tiles and on what the accumulator
  held before (the zero block at a first step), and the output block after a last step is the finishing value on that
  new accumulator and the bias row. These hold for any float instance.
-/
import proofs.«130416_j23802708754444_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem origin : (![0, 0] : Fin 2 → Nat) = fun _ => 0 := funext fun a => by fin_cases a <;> rfl

/-- A first step leaves, in the accumulator, the accumulation of the two tiles onto the zero block. -/
theorem carried_first (c : Dev nD) (i : grid0.Coords) (a3 : Memref sig .tc .vmem S2048x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (a7 : Memref sig .tc .vmem S2048x2048 .f32) (h7 : a7.IsWhole)
    (hc0 : cond0_0 i) (hc1 : ¬cond0_1 i)
    (x : Vec F S2048x512 .bf16) (w : Vec F S2048x512 .bf16) (b : Vec F S1x2048 .f32) :
    sout0_A_0 c i a3 h3 a4 h4 a5 h5 a6 h6 a7 h7 hc0 hc1 x w b = k0_pay2 x w (k0_pay1 (F := F)) := by
  unfold sout0_A_0
  rw [View.read_writes_eq_canon _ _ _ (scover0_A_0 c i a3 h3 a4 h4 a5 h5 a6 h6 a7 h7 hc0 hc1 x w b)]
  unfold kernelRun0_A
  dsimp only
  sl_unfold_words
  rw [View.canon_cons_unit_zero (S := S2048x2048) origin, View.readCov_unit_zero (S := S2048x2048) _ origin]
  simp only [View.readAt_eq_ld, h3.read_unread, h4.read_unread, View.ld_unit_zero (S := S2048x512) origin]

/-- A middle step leaves, in the accumulator holding acc, the accumulation of the two tiles onto acc. -/
theorem carried_mid (c : Dev nD) (i : grid0.Coords) (a3 : Memref sig .tc .vmem S2048x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (a7 : Memref sig .tc .vmem S2048x2048 .f32) (h7 : a7.IsWhole)
    (hc0 : ¬cond0_0 i) (hc1 : ¬cond0_1 i)
    (x : Vec F S2048x512 .bf16) (w : Vec F S2048x512 .bf16) (b : Vec F S1x2048 .f32) (acc : Vec F S2048x2048 .f32) :
    sout0_B_0 c i a3 h3 a4 h4 a5 h5 a6 h6 a7 h7 hc0 hc1 x w b acc = k0_pay2 x w acc := by
  unfold sout0_B_0
  rw [View.read_writes_eq_canon _ _ _ (scover0_B_0 c i a3 h3 a4 h4 a5 h5 a6 h6 a7 h7 hc0 hc1 x w b acc)]
  unfold kernelRun0_B
  dsimp only
  rw [View.canon_unit_zero origin]
  simp only [View.readAt_eq_ld, h3.read_unread, h4.read_unread, h7.read_unread, View.ld_unit_zero (S := S2048x512) origin,
    View.ld_unit_zero (S := S2048x2048) origin]

/-- A last step leaves the same in the accumulator … -/
theorem carried_last (c : Dev nD) (i : grid0.Coords) (a3 : Memref sig .tc .vmem S2048x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (a7 : Memref sig .tc .vmem S2048x2048 .f32) (h7 : a7.IsWhole)
    (hc0 : ¬cond0_0 i) (hc1 : cond0_1 i)
    (x : Vec F S2048x512 .bf16) (w : Vec F S2048x512 .bf16) (b : Vec F S1x2048 .f32) (acc : Vec F S2048x2048 .f32) :
    sout0_C_0 c i a3 h3 a4 h4 a5 h5 a6 h6 a7 h7 hc0 hc1 x w b acc = k0_pay2 x w acc := by
  unfold sout0_C_0
  rw [View.read_writes_eq_canon _ _ _ (scover0_C_0 c i a3 h3 a4 h4 a5 h5 a6 h6 a7 h7 hc0 hc1 x w b acc)]
  unfold kernelRun0_C
  dsimp only
  sl_unfold_words
  rw [View.canon_unit_zero origin]
  simp only [View.readAt_eq_ld, h3.read_unread, h4.read_unread, h7.read_unread, View.ld_unit_zero (S := S2048x512) origin,
    View.ld_unit_zero (S := S2048x2048) origin]

/-- … and, in the output block, the finishing value of that new accumulator and the bias row. -/
theorem output_last (c : Dev nD) (i : grid0.Coords) (a3 : Memref sig .tc .vmem S2048x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (a7 : Memref sig .tc .vmem S2048x2048 .f32) (h7 : a7.IsWhole)
    (hc0 : ¬cond0_0 i) (hc1 : cond0_1 i)
    (x : Vec F S2048x512 .bf16) (w : Vec F S2048x512 .bf16) (b : Vec F S1x2048 .f32) (acc : Vec F S2048x2048 .f32) :
    out0_C_3 c i a3 h3 a4 h4 a5 h5 a6 h6 a7 h7 hc0 hc1 x w b acc = k0_pay3 (k0_pay2 x w acc) b := by
  unfold out0_C_3
  rw [View.read_writes_eq_canon _ _ _ (cover0_C_3 c i a3 h3 a4 h4 a5 h5 a6 h6 a7 h7 hc0 hc1 x w b acc)]
  unfold kernelRun0_C
  dsimp only
  sl_unfold_words
  rw [View.canon_unit_zero origin, View.readCov_unit_zero (S := S2048x2048) _ origin]
  simp only [View.readAt_eq_ld, h3.read_unread, h4.read_unread, h5.read_unread, h7.read_unread,
    View.ld_unit_zero (S := S2048x512) origin, View.ld_unit_zero (S := S2048x2048) origin,
    View.ld_unit_zero (S := S1x2048) origin]

end Cert.KernelIdeal.Body

end
-- ==== Proof.Steps.lean ====
/-
  The accumulator and the output block, step by step along the grid.

  The grid's innermost axis has eight steps. At a step that opens a reduction (its number is a multiple of eight) the
  accumulator ends at the accumulation of that step's two tiles onto the zero block; at every other step at the
  accumulation of that step's tiles onto what the step before left; and at a step that closes a reduction (number 7 modulo 8)
  the output block ends at the finishing value of the new accumulator and that step's bias tile. For any float instance.
-/
import proofs.«130416_j23802708754444_2_alg».proof.Proof.Pieces

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]
variable (m : (ℓ : Loc nD τ sig) → Buf (Elt F) ℓ)

/-- A step that opens a reduction. -/
theorem acc_first (c : Dev nD) (t : Fin cfg0.N) (h0 : t.val % 8 = 0) :
    (outsAt0 m c t.val t.isLt).2 = k0_pay2 (iblk m c 0 t) (iblk m c 1 t) (k0_pay1 (F := F)) := by
  have h1 : ¬t.val % 8 = 7 := by omega
  rw [outsAt0_A m c t h0 h1]
  dsimp only
  exact carried_first (F := F) c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h))
    (iblk m c 0 t) (iblk m c 1 t) (iblk m c 2 t)

/-- Any other step. -/
theorem acc_later (c : Dev nD) (t : Fin cfg0.N) (h0 : ¬t.val % 8 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 8 = 7
  · rw [outsAt0_C m c t h0 h1]
    dsimp only
    exact carried_last (F := F) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2
  · rw [outsAt0_B m c t h0 h1]
    dsimp only
    exact carried_mid (F := F) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2

/-- A step that closes a reduction: the output block. -/
theorem out_last (c : Dev nD) (t : Fin cfg0.N) (h1 : t.val % 8 = 7) :
    (outsAt0 m c t.val t.isLt).1 = k0_pay3 (outsAt0 m c t.val t.isLt).2 (iblk m c 2 t) := by
  have h0 : ¬t.val % 8 = 0 := by omega
  have hO := output_last (F := F) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2
  have hL := carried_last (F := F) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2
  rw [outsAt0_C m c t h0 h1]
  dsimp only
  exact hO.trans (congrArg (fun z => k0_pay3 z (iblk m c 2 t)) hL.symm)

end Cert.KernelIdeal.Body

end
-- ==== Proof.Spec.lean ====
/-
  The scaled linear layer as one function of its three operand arrays, and the one law the comparison needs.

  Rows are the 8192 flattened (batch, position) pairs, columns the 4096 input features. Entry (r, o) of the result is
  the sum over the 4096 columns k of A r k · W o k, plus the bias at o. The kernel visits the columns in eight
  stretches of 512 and adds the stretches' sums one after the other; over the extended reals addition is commutative and
  associative with no side condition, so the eight partial sums add up to the one sum over all columns.
-/
import Idealize.ShloMosaic.PureOps.Ideal
import Idealize.ShloMosaic.Lib.ValueIdx

noncomputable section

open scoped BigOperators
open Idealize.ShloMosaic Idealize.ShloMosaic.ValueIdx

namespace Cert.Spec

/-- Column l of the s-th stretch of 512 columns among 4096. It is taken modulo 4096 so that it is defined for every
    natural s; for s below 8 nothing wraps (col_val). -/
def col (s : ℕ) (l : Fin 512) : Fin 4096 := ⟨(512 * s + l.val) % 4096, Nat.mod_lt _ (by norm_num)⟩

theorem col_val (s : ℕ) (hs : s < 8) (l : Fin 512) : (col s l).val = 512 * s + l.val := by
  have hl := l.isLt
  show (512 * s + l.val) % 4096 = 512 * s + l.val
  omega

/-- A sum over the 4096 columns is the sum, over the eight stretches, of the sums inside each stretch: (s, l) ↦ 512 s + l
    is a bijection from 8 × 512 onto 4096. -/
theorem sum_stretches {M : Type*} [AddCommMonoid M] (f : Fin 4096 → M) :
    ∑ s ∈ Finset.range 8, ∑ l : Fin 512, f (col s l) = ∑ k : Fin 4096, f k := by
  rw [Finset.sum_range (fun s => ∑ l : Fin 512, f (col s l))]
  rw [← Fintype.sum_prod_type' (f := fun (s : Fin 8) (l : Fin 512) => f (col s.val l))]
  refine Fintype.sum_equiv (finProdFinEquiv (m := 8) (n := 512)) _ f (fun x => congrArg f (Fin.ext ?_))
  rw [col_val _ x.1.isLt]
  show 512 * x.1.val + x.2.val = x.2.val + 512 * x.1.val
  omega

/-- The grid visits, in order, 4 row tiles × 2 output tiles × 8 column stretches, so visit number t works on row tile t / 16,
    output tile (t / 8) mod 2 and stretch t mod 8. Row p of the row tile of visit t, among the 8192 rows (modulo 8192 so that
    it is total; for t below 64 nothing wraps). -/
def rowOf (t : ℕ) (p : Fin 2048) : Fin 8192 := ⟨(2048 * (t / 16) + p.val) % 8192, Nat.mod_lt _ (by norm_num)⟩

/-- Output feature q of the output tile of visit t, among the 4096 output features. -/
def outOf (t : ℕ) (q : Fin 2048) : Fin 4096 := ⟨(2048 * (t / 8 % 2) + q.val) % 4096, Nat.mod_lt _ (by norm_num)⟩

/-- Operand shapes, spelled as literals: the flattened activations, the weight matrix, the bias as one row. -/
abbrev Act : Type := (⟨2, ![8192, 4096]⟩ : Shape).Idx → EReal
abbrev Wgt : Type := (⟨2, ![4096, 4096]⟩ : Shape).Idx → EReal
abbrev Bias : Type := (⟨2, ![1, 4096]⟩ : Shape).Idx → EReal

/-- What the first nb stretches of columns contribute to entry (r, o). -/
def part (A : Act) (W : Wgt) (r : Fin 8192) (o : Fin 4096) (nb : ℕ) : EReal :=
  ∑ s ∈ Finset.range nb, ∑ l : Fin 512, A (ix2 r (col s l)) * W (ix2 o (col s l))

theorem part_one (A : Act) (W : Wgt) (r : Fin 8192) (o : Fin 4096) :
    part A W r o 1 = ∑ l : Fin 512, A (ix2 r (col 0 l)) * W (ix2 o (col 0 l)) := by
  unfold part
  rw [Finset.sum_range_one]

theorem part_succ (A : Act) (W : Wgt) (r : Fin 8192) (o : Fin 4096) (nb : ℕ) :
    part A W r o (nb + 1) = part A W r o nb + ∑ l : Fin 512, A (ix2 r (col nb l)) * W (ix2 o (col nb l)) := by
  unfold part
  rw [Finset.sum_range_succ]

/-- All eight stretches together are the whole row-by-row product. -/
theorem part_eight (A : Act) (W : Wgt) (r : Fin 8192) (o : Fin 4096) :
    part A W r o 8 = ∑ k : Fin 4096, A (ix2 r k) * W (ix2 o k) :=
  sum_stretches (fun k => A (ix2 r k) * W (ix2 o k))

/-- The scaled linear layer over flattened rows: entry (r, o) is the row-by-row product of A's row r with W's row o, plus
    the bias at o. -/
def lin (A : Act) (W : Wgt) (b : Bias) : (⟨2, ![8192, 4096]⟩ : Shape).Idx → EReal :=
  fun j => (∑ k : Fin 4096, A (ix2 (j 0) k) * W (ix2 (j 1) k)) + b (ix2 (0 : Fin 1) (j 1))

theorem lin_apply (A : Act) (W : Wgt) (b : Bias) (r : Fin 8192) (o : Fin 4096) :
    lin A W b (ix2 r o) = (∑ k : Fin 4096, A (ix2 r k) * W (ix2 o k)) + b (ix2 (0 : Fin 1) o) := rfl

end Cert.Spec

end
-- ==== Proof.Blocks.lean ====
/-
  The tiles the kernel body is handed at a visit of the grid, as entries of the three operand arrays.

  Visit t works on row tile t / 16, output tile (t / 8) mod 2 and column stretch t mod 8. The activation tile's entry
  (p, l) is the activation array's entry at row 2048 (t / 16) + p and column 512 (t mod 8) + l; the weight tile's entry
  (q, l) is the weight array's at row 2048 ((t / 8) mod 2) + q and the same column; the bias tile's entry (0, q) is the
  bias row's at column 2048 ((t / 8) mod 2) + q.
-/
import proofs.«130416_j23802708754444_2_alg».proof.Proof.Gen.KernelIdeal.Frame
import proofs.«130416_j23802708754444_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen Cert.Spec

variable {F : FTy → Type} [FloatOps F]
variable (m : (ℓ : Loc nD τ sig) → Buf (Elt F) ℓ)

/-- The printed block-index maps of the four windows in closed form, decided over the grid's 64 visits. -/
theorem tile_indices : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

theorem visits (t : Fin cfg0.N) : t.val < 64 := lt_of_lt_of_eq t.isLt (show cfg0.N = 64 from N_0)

/-- The activation tile at visit t. -/
theorem act_tile (c : Dev nD) (t : Fin cfg0.N) (p : Fin 2048) (l : Fin 512) :
    (iblk m c 0 t : Vec F S2048x512 .bf16) (ix2 p l) = V m c main_v13 (ix2 (rowOf t.val p) (col (t.val % 8) l)) := by
  have hN := visits t
  obtain ⟨e0, e1, -⟩ := tile_indices t
  unfold iblk
  rw [View.read_apply]
  show V m c main_v13 (((cfg0.win 0).blk t).view.emb (ix2 p l)) = V m c main_v13 _
  congr 1
  funext a
  apply Fin.ext
  match a with
  | ⟨0, _⟩ =>
    show win0_0.index t (0 : Fin 2) * 2048 + 1 * p.val = (2048 * (t.val / 16) + p.val) % 8192
    have := p.isLt
    omega
  | ⟨1, _⟩ =>
    show win0_0.index t (1 : Fin 2) * 512 + 1 * l.val = (512 * (t.val % 8) + l.val) % 4096
    have := l.isLt
    omega

/-- The weight tile at visit t. -/
theorem wgt_tile (c : Dev nD) (t : Fin cfg0.N) (q : Fin 2048) (l : Fin 512) :
    (iblk m c 1 t : Vec F S2048x512 .bf16) (ix2 q l) = V m c main_v8 (ix2 (outOf t.val q) (col (t.val % 8) l)) := by
  have hN := visits t
  obtain ⟨-, -, e0, e1, -⟩ := tile_indices t
  unfold iblk
  rw [View.read_apply]
  show V m c main_v8 (((cfg0.win 1).blk t).view.emb (ix2 q l)) = V m c main_v8 _
  congr 1
  funext a
  apply Fin.ext
  match a with
  | ⟨0, _⟩ =>
    show win0_1.index t (0 : Fin 2) * 2048 + 1 * q.val = (2048 * (t.val / 8 % 2) + q.val) % 4096
    have := q.isLt
    omega
  | ⟨1, _⟩ =>
    show win0_1.index t (1 : Fin 2) * 512 + 1 * l.val = (512 * (t.val % 8) + l.val) % 4096
    have := l.isLt
    omega

/-- The bias tile at visit t. -/
theorem bias_tile (c : Dev nD) (t : Fin cfg0.N) (q : Fin 2048) :
    (iblk m c 2 t : Vec F S1x2048 .f32) (ix2 (0 : Fin 1) q) = V m c main_v14 (ix2 (0 : Fin 1) (outOf t.val q)) := by
  have hN := visits t
  obtain ⟨-, -, -, -, e0, e1, -⟩ := tile_indices t
  unfold iblk
  rw [View.read_apply]
  show V m c main_v14 (((cfg0.win 2).blk t).view.emb (ix2 (0 : Fin 1) q)) = V m c main_v14 _
  congr 1
  funext a
  apply Fin.ext
  match a with
  | ⟨0, _⟩ =>
    show win0_2.index t (0 : Fin 2) * 1 + 1 * 0 = 0
    omega
  | ⟨1, _⟩ =>
    show win0_2.index t (1 : Fin 2) * 2048 + 1 * q.val = (2048 * (t.val / 8 % 2) + q.val) % 4096
    have := q.isLt
    omega

end Cert.KernelIdeal.Body

end
-- ==== Proof.Payload.lean ====
/-
  The kernel body's arithmetic read at one entry, over the extended reals.

  The body has three stored values. The reset stores the zero block. The accumulation stores, at entry (p, q) of the
  2048 × 2048 accumulator, the old entry plus the sum over the 512 columns l of the activation tile's (p, l) times the
  weight tile's (q, l): both tiles are contracted along their second axis. The last step stores the accumulator entry
  plus the bias row's entry q. A change of float format is the identity here, and a cast of a block to its own shape is
  the block.
-/
import proofs.«130416_j23802708754444_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Body

open Cert.KernelIdeal Cert.KernelIdeal.Gen

/-- The reset value is zero at every entry. -/
theorem reset_apply (j : S2048x2048.Idx) : k0_pay1 (F := Ideal) j = 0 := by
  unfold k0_pay1
  rw [shapeCast_self]
  show Ideal.ofBits .f32 0x00000000#32 = 0
  exact Ideal.ofBits_zero_f32

/-! The entries a matrix product contracting both operands' second axes reads for output (i₀, i₁) at contraction
    position k: the left tile at (i₀, k), the right tile at (i₁, k). -/

theorem lhs_row (i : S2048x2048.Idx) (k : dot_S2048x512_S2048x512_S2048x2048_1_1_0_0_n_n.contr.Idx) :
    (dot_S2048x512_S2048x512_S2048x2048_1_1_0_0_n_n.lhsIdx i k 0).val = (i 0).val := by
  unfold DotDims.lhsIdx
  rw [dif_neg (show ¬(0 : Fin S2048x512.rank) ∈ dot_S2048x512_S2048x512_S2048x2048_1_1_0_0_n_n.lhsBatch by decide),
    dif_pos (show (0 : Fin S2048x512.rank) ∈ dot_S2048x512_S2048x512_S2048x2048_1_1_0_0_n_n.lhsNonContracting by decide)]
  rfl

theorem lhs_col (i : S2048x2048.Idx) (k : dot_S2048x512_S2048x512_S2048x2048_1_1_0_0_n_n.contr.Idx) :
    (dot_S2048x512_S2048x512_S2048x2048_1_1_0_0_n_n.lhsIdx i k 1).val = (k ⟨0, by decide⟩).val :=
  dot_S2048x512_S2048x512_S2048x2048_1_1_0_0_n_n.lhsIdx_val_of_single rfl i k

theorem rhs_row (i : S2048x2048.Idx) (k : dot_S2048x512_S2048x512_S2048x2048_1_1_0_0_n_n.contr.Idx) :
    (dot_S2048x512_S2048x512_S2048x2048_1_1_0_0_n_n.rhsIdx i k 0).val = (i 1).val := by
  unfold DotDims.rhsIdx
  rw [dif_neg (show ¬(0 : Fin S2048x512.rank) ∈ dot_S2048x512_S2048x512_S2048x2048_1_1_0_0_n_n.rhsBatch by decide),
    dif_pos (show (0 : Fin S2048x512.rank) ∈ dot_S2048x512_S2048x512_S2048x2048_1_1_0_0_n_n.rhsNonContracting by decide)]
  rfl

theorem rhs_col (i : S2048x2048.Idx) (k : dot_S2048x512_S2048x512_S2048x2048_1_1_0_0_n_n.contr.Idx) :
    (dot_S2048x512_S2048x512_S2048x2048_1_1_0_0_n_n.rhsIdx i k 1).val = (k ⟨0, by decide⟩).val :=
  dot_S2048x512_S2048x512_S2048x2048_1_1_0_0_n_n.rhsIdx_val_of_single rfl i k

/-- The accumulation at entry (p, q): the old entry plus the product of row p of the activation tile with row q of the
    weight tile. -/
theorem accumulate_apply (x w : Vec Ideal S2048x512 .bf16) (acc : Vec Ideal S2048x2048 .f32) (p q : Fin 2048) :
    k0_pay2 (F := Ideal) x w acc (ix2 p q) = acc (ix2 p q) + ∑ l : Fin 512, x (ix2 p l) * w (ix2 q l) := by
  unfold k0_pay2
  rw [shapeCast_self, shapeCast_self, shapeCast_self]
  show (acc (ix2 p q) : EReal) + FloatOps.matmul (F := Ideal) dot_S2048x512_S2048x512_S2048x2048_1_1_0_0_n_n none x w
      (constant (F := Ideal) S2048x2048 .f32 0x00000000#32) (ix2 p q) = _
  rw [Ideal.matmul_constant_zero_apply,
    ← Equiv.sum_comp (contrEquiv1 dot_S2048x512_S2048x512_S2048x2048_1_1_0_0_n_n 512 rfl rfl).symm]
  refine congrArg (acc (ix2 p q) + ·) (Finset.sum_congr rfl fun l _ => ?_)
  have hl := contrEquiv1_symm_val dot_S2048x512_S2048x512_S2048x2048_1_1_0_0_n_n 512 rfl rfl l
  have el : dot_S2048x512_S2048x512_S2048x2048_1_1_0_0_n_n.lhsIdx (ix2 p q)
      ((contrEquiv1 dot_S2048x512_S2048x512_S2048x2048_1_1_0_0_n_n 512 rfl rfl).symm l) = ix2 p l :=
    funext fun a => Fin.ext (by
      match a with
      | ⟨0, _⟩ => exact lhs_row _ _
      | ⟨1, _⟩ => exact (lhs_col _ _).trans hl)
  have er : dot_S2048x512_S2048x512_S2048x2048_1_1_0_0_n_n.rhsIdx (ix2 p q)
      ((contrEquiv1 dot_S2048x512_S2048x512_S2048x2048_1_1_0_0_n_n 512 rfl rfl).symm l) = ix2 q l :=
    funext fun a => Fin.ext (by
      match a with
      | ⟨0, _⟩ => exact rhs_row _ _
      | ⟨1, _⟩ => exact (rhs_col _ _).trans hl)
  rw [el, er]

/-- The last step at entry (p, q): the accumulator entry plus the bias row's entry q (the one-row bias is broadcast down
    the 2048 rows). -/
theorem finish_apply (acc : Vec Ideal S2048x2048 .f32) (b : Vec Ideal S1x2048 .f32) (p q : Fin 2048) :
    k0_pay3 (F := Ideal) acc b (ix2 p q) = acc (ix2 p q) + b (ix2 (0 : Fin 1) q) := by
  unfold k0_pay3
  rw [shapeCast_self]
  show (acc (ix2 p q) : EReal) + broadcastTo S2048x2048 b broadcasts_S1x2048_S2048x2048 (ix2 p q) = _
  rw [broadcastTo_apply b broadcasts_S1x2048_S2048x2048 (ix2 p q) (ix2 (0 : Fin 1) q) (fun a => by
    match a with
    | ⟨0, _⟩ => rfl
    | ⟨1, _⟩ => rfl)]

end Cert.KernelIdeal.Body

end
-- ==== Proof.Accum.lean ====
/-
  The accumulator along the grid, in closed form, over the extended reals.

  After visit n the accumulator's entry (p, q) is the contribution of the column stretches 0, …, n mod 8 to entry
  (row p of visit n's row tile, output feature q of visit n's output tile) of the product of the activations with the
  transposed weights: a visit that opens a reduction starts from zero and adds stretch 0; every other visit adds its own
  stretch to what the visit before left, and works on the same row tile and output tile as that visit. By induction on n.
  At a visit that closes a reduction all eight stretches are in, and the output block is that full sum plus the bias.
-/
import proofs.«130416_j23802708754444_2_alg».proof.Proof.Steps
import proofs.«130416_j23802708754444_2_alg».proof.Proof.Blocks
import proofs.«130416_j23802708754444_2_alg».proof.Proof.Payload

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen Cert.Spec

variable (m : (ℓ : Loc nD τ sig) → Buf (Elt Ideal) ℓ)

/-- The three operand arrays as the kernel's region finds them: the flattened scaled activations, the weight matrix, the
    bias as one row. -/
abbrev actOf (c : Dev nD) : Act := V m c main_v13
abbrev wgtOf (c : Dev nD) : Wgt := V m c main_v8
abbrev biasOf (c : Dev nD) : Bias := V m c main_v14

/-- The product of row p of visit t's activation tile with row q of its weight tile is stretch t mod 8 of the whole
    arrays' row-by-row product. -/
theorem stretch_of_tiles (x w : Vec Ideal S2048x512 .bf16) (A : Act) (W : Wgt) (p q : Fin 2048) (r : Fin 8192) (o : Fin 4096) (s : ℕ)
    (hx : ∀ l : Fin 512, x (ix2 p l) = A (ix2 r (col s l))) (hw : ∀ l : Fin 512, w (ix2 q l) = W (ix2 o (col s l))) :
    ∑ l : Fin 512, x (ix2 p l) * w (ix2 q l) = ∑ l : Fin 512, A (ix2 r (col s l)) * W (ix2 o (col s l)) :=
  Finset.sum_congr rfl fun l _ => by rw [hx l, hw l]

/-- The accumulator after visit n. -/
theorem acc_closed (c : Dev nD) : ∀ (n : ℕ) (h : n < cfg0.N) (p q : Fin 2048),
    (outsAt0 m c n h).2 (ix2 p q) = part (actOf m c) (wgtOf m c) (rowOf n p) (outOf n q) (n % 8 + 1)
  | 0, h, p, q => by
    have e := congrFun (acc_first m c ⟨0, h⟩ rfl) (ix2 p q)
    refine e.trans ?_
    refine (accumulate_apply _ _ _ p q).trans ?_
    rw [reset_apply, zero_add]
    refine (stretch_of_tiles (iblk m c 0 (⟨0, h⟩ : Fin cfg0.N)) (iblk m c 1 (⟨0, h⟩ : Fin cfg0.N)) (actOf m c) (wgtOf m c) p q (rowOf ((⟨0, h⟩ : Fin cfg0.N)).val p) (outOf ((⟨0, h⟩ : Fin cfg0.N)).val q) (((⟨0, h⟩ : Fin cfg0.N)).val % 8)
        (fun l => act_tile m c (⟨0, h⟩ : Fin cfg0.N) p l) (fun l => wgt_tile m c (⟨0, h⟩ : Fin cfg0.N) q l)).trans ?_
    exact (part_one _ _ _ _).symm
  | n + 1, h, p, q => by
    have hN : n + 1 < 64 := lt_of_lt_of_eq h (show cfg0.N = 64 from N_0)
    by_cases h0 : (n + 1) % 8 = 0
    · have e := congrFun (acc_first m c ⟨n + 1, h⟩ h0) (ix2 p q)
      refine e.trans ?_
      refine (accumulate_apply _ _ _ p q).trans ?_
      rw [reset_apply, zero_add]
      refine (stretch_of_tiles (iblk m c 0 (⟨n + 1, h⟩ : Fin cfg0.N)) (iblk m c 1 (⟨n + 1, h⟩ : Fin cfg0.N)) (actOf m c) (wgtOf m c) p q (rowOf ((⟨n + 1, h⟩ : Fin cfg0.N)).val p) (outOf ((⟨n + 1, h⟩ : Fin cfg0.N)).val q) (((⟨n + 1, h⟩ : Fin cfg0.N)).val % 8)
        (fun l => act_tile m c (⟨n + 1, h⟩ : Fin cfg0.N) p l) (fun l => wgt_tile m c (⟨n + 1, h⟩ : Fin cfg0.N) q l)).trans ?_
      show ∑ l : Fin 512, actOf m c (ix2 (rowOf (n + 1) p) (col ((n + 1) % 8) l)) * wgtOf m c (ix2 (outOf (n + 1) q) (col ((n + 1) % 8) l))
        = part (actOf m c) (wgtOf m c) (rowOf (n + 1) p) (outOf (n + 1) q) ((n + 1) % 8 + 1)
      rw [h0]
      exact (part_one _ _ _ _).symm
    · have e := congrFun (acc_later m c ⟨n + 1, h⟩ h0) (ix2 p q)
      refine e.trans ?_
      refine (accumulate_apply _ _ _ p q).trans ?_
      have ih := acc_closed c n (Nat.lt_of_succ_lt h) p q
      have er : rowOf n p = rowOf (n + 1) p := Fin.ext (by
        show (2048 * (n / 16) + p.val) % 8192 = (2048 * ((n + 1) / 16) + p.val) % 8192
        have : n / 16 = (n + 1) / 16 := by omega
        rw [this])
      have eo : outOf n q = outOf (n + 1) q := Fin.ext (by
        show (2048 * (n / 8 % 2) + q.val) % 4096 = (2048 * ((n + 1) / 8 % 2) + q.val) % 4096
        have : n / 8 % 2 = (n + 1) / 8 % 2 := by omega
        rw [this])
      have ek : n % 8 + 1 = (n + 1) % 8 := by omega
      rw [er, eo, ek] at ih
      show (outsAt0 m c n (Nat.lt_of_succ_lt h)).2 (ix2 p q) + _ = _
      rw [ih]
      refine (congrArg (part (actOf m c) (wgtOf m c) (rowOf (n + 1) p) (outOf (n + 1) q) ((n + 1) % 8) + ·)
        (stretch_of_tiles (iblk m c 0 (⟨n + 1, h⟩ : Fin cfg0.N)) (iblk m c 1 (⟨n + 1, h⟩ : Fin cfg0.N)) (actOf m c) (wgtOf m c) p q (rowOf ((⟨n + 1, h⟩ : Fin cfg0.N)).val p) (outOf ((⟨n + 1, h⟩ : Fin cfg0.N)).val q) (((⟨n + 1, h⟩ : Fin cfg0.N)).val % 8)
        (fun l => act_tile m c (⟨n + 1, h⟩ : Fin cfg0.N) p l) (fun l => wgt_tile m c (⟨n + 1, h⟩ : Fin cfg0.N) q l))).trans ?_
      exact (part_succ _ _ _ _ _).symm

/-- The output block after a visit that closes a reduction: the whole row-by-row product plus the bias. -/
theorem out_closed (c : Dev nD) (t : Fin cfg0.N) (h1 : t.val % 8 = 7) (p q : Fin 2048) :
    (outsAt0 m c t.val t.isLt).1 (ix2 p q)
      = (∑ k : Fin 4096, actOf m c (ix2 (rowOf t.val p) k) * wgtOf m c (ix2 (outOf t.val q) k))
        + biasOf m c (ix2 (0 : Fin 1) (outOf t.val q)) := by
  have e := congrFun (out_last m c t h1) (ix2 p q)
  refine e.trans ?_
  refine (finish_apply _ _ p q).trans ?_
  rw [acc_closed m c t.val t.isLt p q, h1, part_eight, bias_tile m c t q]

end Cert.KernelIdeal.Body

end
-- ==== Proof.Region.lean ====
/-
  The result array of the kernel's region is the scaled linear layer of the three operand arrays.

  The output block is written back at the eight-th step of each reduction only. What is written back at such a visit is
  the tile (row tile, output tile) of the layer: its entry (p, q) is the layer's entry at row 2048 (t / 16) + p and output
  feature 2048 ((t / 8) mod 2) + q. The 4 × 2 tiles cover the 8192 × 4096 array, the tile holding entry (r, o) being the
  one written at visit 16 (r / 2048) + 8 (o / 2048) + 7. So the array ends holding the layer everywhere.
-/
import proofs.«130416_j23802708754444_2_alg».proof.Proof.Accum

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen Cert.Spec

variable (m : (ℓ : Loc nD τ sig) → Buf (Elt Ideal) ℓ)

/-- The layer of the operand arrays as the region finds them, as contents of the region's result array. -/
abbrev layerOf (c : Dev nD) : Buf (Elt Ideal) ((c : Thread nD τ).loc main_v15) := lin (actOf m c) (wgtOf m c) (biasOf m c)

/-- What a closing visit writes back is its tile of the layer. -/
theorem written_back (c : Dev nD) (t : Fin cfg0.N) (hf : (cfg0.win 3).flush t = true) :
    (dats m 0 c).flushed 3 t = ((cfg0.win 3).blk t).view.read (Elt Ideal) (layerOf m c) := by
  have h7 : t.val % 8 = 7 := (flush0_3 t).mp hf
  have hN := visits t
  obtain ⟨-, -, -, -, -, -, e0, e1⟩ := tile_indices t
  show (cfg0.win 3).cut (grid0.coords t) ((dats m 0 c).after 3 t) = _
  rw [after0_3]
  funext y
  obtain ⟨p, q, rfl⟩ : ∃ (p : Fin 2048) (q : Fin 2048), y = ix2 p q := ⟨y 0, y 1, eq_ix2 y⟩
  show (outsAt0 m c t.val t.isLt).1 (ix2 p q) = layerOf m c (((cfg0.win 3).blk t).view.emb (ix2 p q))
  have he : ((cfg0.win 3).blk t).view.emb (ix2 p q) = ix2 (rowOf t.val p) (outOf t.val q) := by
    funext a
    apply Fin.ext
    match a with
    | ⟨0, _⟩ =>
      show win0_3.index t (0 : Fin 2) * 2048 + 1 * p.val = (2048 * (t.val / 16) + p.val) % 8192
      have := p.isLt
      omega
    | ⟨1, _⟩ =>
      show win0_3.index t (1 : Fin 2) * 2048 + 1 * q.val = (2048 * (t.val / 8 % 2) + q.val) % 4096
      have := q.isLt
      omega
  rw [he, out_closed m c t h7 p q]
  rfl

/-- An entry of the result array is in visit t's tile iff each coordinate is in the tile's range on its axis. -/
theorem mem_tile (t : Fin cfg0.N) (i : S8192x4096.Idx) :
    i ∈ ((cfg0.win 3).blk t).view.set
      ↔ ∀ a : Fin 2, win0_3.index t a * S2048x2048.size a ≤ (i a).val ∧ (i a).val < win0_3.index t a * S2048x2048.size a + S2048x2048.size a := by
  show i ∈ ((View.whole main_v15).slice (win0_3.rect t)).set ↔ _
  rw [View.set_slice_whole, Rect.mem_set_unit]
  exact Iff.rfl

/-- Every entry of the result array is in the tile of some closing visit. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hlt : 16 * ((i 0).val / 2048) + 8 * ((i 1).val / 2048) + 7 < cfg0.N := by
    rw [show cfg0.N = 64 from N_0]; omega
  obtain ⟨t, ht⟩ : ∃ t : Fin cfg0.N, t.val = 16 * ((i 0).val / 2048) + 8 * ((i 1).val / 2048) + 7 := ⟨⟨_, hlt⟩, rfl⟩
  obtain ⟨-, -, -, -, -, -, e0, e1⟩ := tile_indices t
  refine ⟨t, (flush0_3 t).mpr (by omega), ?_⟩
  rw [mem_tile]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 2048 ≤ (i 1).val ∧ (i 1).val < win0_3.index t (1 : Fin 2) * 2048 + 2048
    omega

/-- The result array after the region. -/
theorem region_result (c : Dev nD) : (dats m 0 c).arrAt 3 cfg0.N = layerOf m c :=
  (dats m 0 c).arrAt_eq_of_cover 3 (layerOf m c) (written_back m c) (fun i => covered i)

end Cert.KernelIdeal.Body

end
-- ==== Proof.Operands.lean ====
/-
  The kernel's program around its region: what the three operand arrays are, and the program's result.

  Before the region the host computes the operands from the arguments. The activations are the input times the scale
  (the scale broadcast along the feature axis), rounded to a narrower float format — the identity over the extended reals —
  and flattened from (4, 2048, 4096) to (8192, 4096). The weight matrix is the codebook rows gathered at the labels (a
  negative label first wrapped around by 256), reshaped from (2097152, 8) to (4096, 4096) and rounded the same way. The
  bias is the bias argument as one row. After the region the host reshapes the region's (8192, 4096) result back to
  (4, 2048, 4096). The region's result is the layer of those operands, so the program's is its reshape.
-/
import proofs.«130416_j23802708754444_2_alg».proof.Proof.Region
import Idealize.ShloMosaic.Lib.StableHlo.Run

set_option maxRecDepth 16384

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Body

open Cert.KernelIdeal Cert.KernelIdeal.Gen Cert.Spec

variable (m : (ℓ : Loc nD τ sig) → Buf (Elt Ideal) ℓ) (ρ : Dev nD → PrngReg)

/-- The labels as the gather reads them: a negative label has 256 added, and each label becomes a one-entry row. -/
def wrapped (lab : (⟨S2097152, .i32⟩ : BufTy).Contents (Elt Ideal)) : (⟨S2097152x1, .i32⟩ : BufTy).Contents (Elt Ideal) :=
  broadcastInDim S2097152x1 ![0] bcast_S2097152_S2097152x1_0
    (select (cmpi .slt lab (broadcastInDim S2097152 ![] bcast_S_S2097152 (constantI S_ 32 0#32)))
      (addi lab (broadcastInDim S2097152 ![] bcast_S_S2097152 (constantI S_ 32 256#32))) lab)

/-- The weight matrix decompressed from the codebook: the codebook rows at the labels, laid out as (4096, 4096). -/
def weights (cen : (⟨S256x8, .f32⟩ : BufTy).Contents (Elt Ideal)) (lab : (⟨S2097152, .i32⟩ : BufTy).Contents (Elt Ideal)) :
    (⟨S4096x4096, .f32⟩ : BufTy).Contents (Elt Ideal) :=
  shapeCast S4096x4096 (Host.gather gather_S256x8_S2097152x1_S2097152x8_1_0_n_n_0_1_18 cen (wrapped lab)) shapeCasts_S2097152x8_S4096x4096

/-- The scaled activations before flattening. -/
def scaled (x : (⟨S4x2048x4096, .f32⟩ : BufTy).Contents (Elt Ideal)) (sc : (⟨S4096, .f32⟩ : BufTy).Contents (Elt Ideal)) :
    (⟨S4x2048x4096, .f32⟩ : BufTy).Contents (Elt Ideal) :=
  mulf (F := Ideal) (φ := .f32) x (broadcastInDim S4x2048x4096 ![0, 1, 2] bcast_S1x1x4096_S4x2048x4096_0_1_2 (broadcastInDim S1x1x4096 ![2] bcast_S4096_S1x1x4096_2 sc))

/-- The activation operand. -/
theorem act_operand (c : Dev nD) :
    actOf m c = shapeCast S8192x4096
      (truncf (F := Ideal) (φ := .f32) .bf16 (scaled (m ((c.tc : Thread nD τ).loc main_arg0)) (m ((c.tc : Thread nD τ).loc main_arg3))) bitsLt_bf16_f32)
      shapeCasts_S4x2048x4096_S8192x4096 := by
  show StableHlo.after hostOps0 (fun b => m (c, b)) (Proc.devRef .tc main_v13) = _
  after_results
  rfl

/-- The weight operand. -/
theorem wgt_operand (c : Dev nD) :
    wgtOf m c = truncf (F := Ideal) (φ := .f32) .bf16 (weights (m ((c.tc : Thread nD τ).loc main_arg1)) (m ((c.tc : Thread nD τ).loc main_arg2))) bitsLt_bf16_f32 := by
  show StableHlo.after hostOps0 (fun b => m (c, b)) (Proc.devRef .tc main_v8) = _
  after_results
  rfl

/-- The bias operand. -/
theorem bias_operand (c : Dev nD) :
    biasOf m c = shapeCast S1x4096 (m ((c.tc : Thread nD τ).loc main_arg4)) shapeCasts_S4096_S1x4096 := by
  show StableHlo.after hostOps0 (fun b => m (c, b)) (Proc.devRef .tc main_v14) = _
  after_results
  rfl

/-- The program's result: the region's result array reshaped. -/
theorem tail_result (c : Dev nD) :
    Pipeline.afterTail₀ cfgs (dats m) 0 (V0 m) [hostOps1] c main_v16
      = shapeCast S4x2048x4096 (layerOf m c) shapeCasts_S8192x4096_S4x2048x4096 := by
  have e : Pipeline.withArrays (cfgs 0).spec c (V0 m c) (fun w => (dats m 0 c).arrAt w (cfgs 0).N) (Proc.devRef .tc main_v15)
      = layerOf m c :=
    (Pipeline.withArrays_arr spec0 launch0.win.arr_inj c (V0 m c) (fun w => (dats m 0 c).arrAt w cfg0.N) 3).trans (region_result m c)
  unfold Pipeline.afterTail₀
  show StableHlo.after hostOps1 _ (Proc.devRef .tc main_v16) = _
  after_results
  rw [e]
  rfl

/-- The kernel's program, run: every weakly fair execution ends with the result at the reshaped layer of the operands and the
    arguments unchanged. -/
theorem run : θ_run defs (onTc (τ := τ) (main (F := Ideal))) ⟨m, fun _ => 0, ρ⟩ fun r => ∀ c : Dev nD,
      r.2.mem ((c.tc : Thread nD τ).loc main_v16) = shapeCast S4x2048x4096 (layerOf m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v16 (Pipeline.mem_restRefs_of main_v16 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Body

end
-- ==== Proof.Layer.lean ====
/-
  The scaled linear layer as a function of the program's own arguments.

  For input x of shape (4, 2048, 4096), scale and bias of length 4096 and a weight matrix W of shape (4096, 4096), entry
  (b, s, o) of the result is the sum over the 4096 features k of (x b s k · scale k) · W o k, plus bias o. Flattening (b, s)
  to the row 2048 b + s turns it into the layer over flattened rows: row-major order is kept by the flattening.
-/
import proofs.«130416_j23802708754444_2_alg».proof.Proof.Spec

noncomputable section

open scoped BigOperators
open Idealize.ShloMosaic Idealize.ShloMosaic.ValueIdx

namespace Cert.Spec

abbrev In3 : Type := (⟨3, ![4, 2048, 4096]⟩ : Shape).Idx → EReal
abbrev Len4096 : Type := (⟨1, ![4096]⟩ : Shape).Idx → EReal

/-- The layer over the unflattened input. -/
def layer (x : In3) (sc : Len4096) (W : Wgt) (bias : Len4096) : In3 :=
  fun i => (∑ k : Fin 4096, (x (ix3 (i 0) (i 1) k) * sc (ix1 k)) * W (ix2 (i 2) k)) + bias (ix1 (i 2))

theorem layer_apply (x : In3) (sc : Len4096) (W : Wgt) (bias : Len4096) (b : Fin 4) (s : Fin 2048) (o : Fin 4096) :
    layer x sc W bias (ix3 b s o) = (∑ k : Fin 4096, (x (ix3 b s k) * sc (ix1 k)) * W (ix2 o k)) + bias (ix1 o) := rfl

/-- Row 2048 b + s of the flattened activations. -/
def flatRow (b : Fin 4) (s : Fin 2048) : Fin 8192 := ⟨2048 * b.val + s.val, by have := b.isLt; have := s.isLt; omega⟩

/-- If the flattened operands read the unflattened ones entry by entry, the layer over flattened rows at (2048 b + s, o) is
    the layer at (b, s, o). -/
theorem lin_eq_layer (A : Act) (W W' : Wgt) (B : Bias) (x : In3) (sc : Len4096) (bias : Len4096)
    (hA : ∀ (b : Fin 4) (s : Fin 2048) (k : Fin 4096), A (ix2 (flatRow b s) k) = x (ix3 b s k) * sc (ix1 k))
    (hW : ∀ (o k : Fin 4096), W (ix2 o k) = W' (ix2 o k))
    (hB : ∀ o : Fin 4096, B (ix2 (0 : Fin 1) o) = bias (ix1 o))
    (b : Fin 4) (s : Fin 2048) (o : Fin 4096) :
    lin A W B (ix2 (flatRow b s) o) = layer x sc W' bias (ix3 b s o) := by
  rw [lin_apply, layer_apply, hB o]
  refine congrArg (· + bias (ix1 o)) (Finset.sum_congr rfl fun k _ => ?_)
  rw [hA b s k, hW o k]

end Cert.Spec

end
-- ==== Proof.KernelValue.lean ====
/-
  The kernel's program computes the layer of its arguments.

  Its result is the region's (8192, 4096) result reshaped to (4, 2048, 4096), so entry (b, s, o) is the region's entry at
  row 2048 b + s. The flattened activations at that row are the scaled input at (b, s, ·); the scale, broadcast along the
  feature axis, contributes scale k at feature k; the narrowing of the float format is the identity on extended reals; the
  one-row bias at column o is the bias argument at o.
-/
import proofs.«130416_j23802708754444_2_alg».proof.Proof.Operands
import proofs.«130416_j23802708754444_2_alg».proof.Proof.Layer

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen Cert.Spec

variable (m : (ℓ : Loc nD τ sig) → Buf (Elt Ideal) ℓ)

/-- The program's float arguments, typed over literal shapes. -/
abbrev inputOf (c : Dev nD) : In3 := m ((c.tc : Thread nD τ).loc main_arg0)
abbrev scaleOf (c : Dev nD) : Len4096 := m ((c.tc : Thread nD τ).loc main_arg3)
abbrev biasArgOf (c : Dev nD) : Len4096 := m ((c.tc : Thread nD τ).loc main_arg4)

/-- The scale broadcast to the input's shape reads scale k at (b, s, k). -/
theorem scale_at (sc : (⟨S4096, .f32⟩ : BufTy).Contents (Elt Ideal)) (b : Fin 4) (s : Fin 2048) (k : Fin 4096) :
    broadcastInDim S4x2048x4096 ![0, 1, 2] bcast_S1x1x4096_S4x2048x4096_0_1_2
      (broadcastInDim S1x1x4096 ![2] bcast_S4096_S1x1x4096_2 sc) (ix3 b s k) = sc (ix1 k) := by
  rw [broadcastInDim_apply _ bcast_S1x1x4096_S4x2048x4096_0_1_2 _ (ix3 b s k) (ix3 (0 : Fin 1) (0 : Fin 1) k) (fun a => match a with
      | ⟨0, _⟩ => by show 0 = if (1 : Nat) = 1 then 0 else b.val; rw [if_pos rfl]
      | ⟨1, _⟩ => by show 0 = if (1 : Nat) = 1 then 0 else s.val; rw [if_pos rfl]
      | ⟨2, _⟩ => by show k.val = if (4096 : Nat) = 1 then 0 else k.val; rw [if_neg (by decide)]),
    broadcastInDim_apply _ bcast_S4096_S1x1x4096_2 sc (ix3 (0 : Fin 1) (0 : Fin 1) k) (ix1 k) (fun a => match a with
      | ⟨0, _⟩ => by show k.val = if (4096 : Nat) = 1 then 0 else k.val; rw [if_neg (by decide)])]

/-- The flattened activations at row 2048 b + s and feature k. -/
theorem act_at (c : Dev nD) (b : Fin 4) (s : Fin 2048) (k : Fin 4096) :
    actOf m c (ix2 (flatRow b s) k)
      = inputOf m c (ix3 b s k) * scaleOf m c (ix1 k) := by
  rw [act_operand m c, shapeCast_apply _ shapeCasts_S4x2048x4096_S8192x4096 (ix2 (flatRow b s) k) (ix3 b s k) (by
    show (S4x2048x4096.rowMajor (ix3 b s k)).val = (S8192x4096.rowMajor (ix2 (flatRow b s) k)).val
    rw [Shape.rowMajor_val_two, Shape.rowMajor_val_three]
    show (b.val * 2048 + s.val) * 4096 + k.val = (2048 * b.val + s.val) * 4096 + k.val
    omega)]
  show inputOf m c (ix3 b s k) * _ = _
  rw [scale_at]

/-- The weight operand is the decompressed weight matrix. -/
theorem wgt_at (c : Dev nD) (o k : Fin 4096) :
    wgtOf m c (ix2 o k) = weights (m ((c.tc : Thread nD τ).loc main_arg1)) (m ((c.tc : Thread nD τ).loc main_arg2)) (ix2 o k) := by
  rw [wgt_operand m c]
  rfl

/-- The one-row bias at column o. -/
theorem bias_at (c : Dev nD) (o : Fin 4096) :
    biasOf m c (ix2 (0 : Fin 1) o) = biasArgOf m c (ix1 o) := by
  rw [bias_operand m c, shapeCast_apply _ shapeCasts_S4096_S1x4096 (ix2 (0 : Fin 1) o) (ix1 o) (by
    show (S4096.rowMajor (ix1 o)).val = (S1x4096.rowMajor (ix2 (0 : Fin 1) o)).val
    rw [Shape.rowMajor_val_one, Shape.rowMajor_val_two]
    show o.val = 0 * 4096 + o.val
    omega)]

/-- The program's result is the layer of its arguments and the decompressed weight matrix. -/
theorem result_is_layer (c : Dev nD) :
    shapeCast S4x2048x4096 (layerOf m c) shapeCasts_S8192x4096_S4x2048x4096
      = layer (m ((c.tc : Thread nD τ).loc main_arg0)) (m ((c.tc : Thread nD τ).loc main_arg3))
          (weights (m ((c.tc : Thread nD τ).loc main_arg1)) (m ((c.tc : Thread nD τ).loc main_arg2)))
          (m ((c.tc : Thread nD τ).loc main_arg4)) := by
  funext i
  obtain ⟨b, s, o, rfl⟩ : ∃ (b : Fin 4) (s : Fin 2048) (o : Fin 4096), i = ix3 b s o := ⟨i 0, i 1, i 2, eq_ix3 i⟩
  rw [shapeCast_apply (layerOf m c) shapeCasts_S8192x4096_S4x2048x4096 (ix3 b s o) (ix2 (flatRow b s) o) (by
    show (S8192x4096.rowMajor (ix2 (flatRow b s) o)).val = (S4x2048x4096.rowMajor (ix3 b s o)).val
    rw [Shape.rowMajor_val_two, Shape.rowMajor_val_three]
    show (2048 * b.val + s.val) * 4096 + o.val = (b.val * 2048 + s.val) * 4096 + o.val
    omega)]
  exact lin_eq_layer (actOf m c) (wgtOf m c) _ (biasOf m c) (inputOf m c) (scaleOf m c) (biasArgOf m c)
    (act_at m c) (wgt_at m c) (bias_at m c) b s o

end Cert.KernelIdeal.Body

end
-- ==== Proof.RefValue.lean ====
/-
  The reference computes the layer.

  Read one operation at a time, entry (b, s, o) of the reference's result is the matrix product's entry — the sum over k of
  the scaled input at (b, s, k) times the decompressed weight matrix at (o, k) — plus the bias broadcast along the last
  axis. The scale is broadcast along the feature axis, so the scaled input at (b, s, k) is x b s k · scale k.
-/
import proofs.«130416_j23802708754444_2_alg».proof.Proof.Gen.ReferenceIdeal.Read
import proofs.«130416_j23802708754444_2_alg».proof.Proof.Layer

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Spec

theorem left_entry (b : Fin 4) (s : Fin 2048) (o k : Fin 4096) : lidx_main_v11 (ix3 b s o) k = ix3 b s k :=
  funext fun a => Fin.ext (by match a with | ⟨0, _⟩ => rfl | ⟨1, _⟩ => rfl | ⟨2, _⟩ => rfl)

theorem right_entry (b : Fin 4) (s : Fin 2048) (o k : Fin 4096) : ridx_main_v11 (ix3 b s o) k = ix2 o k :=
  funext fun a => Fin.ext (by match a with | ⟨0, _⟩ => rfl | ⟨1, _⟩ => rfl)

theorem scale_entry (b : Fin 4) (s : Fin 2048) (k : Fin 4096) : idx_main_v8 (idx_main_v9 (ix3 b s k)) = ix1 k :=
  funext fun a => Fin.ext (by match a with | ⟨0, _⟩ => rfl)

theorem bias_entry (b : Fin 4) (s : Fin 2048) (o : Fin 4096) : idx_main_v12 (idx_main_v13 (ix3 b s o)) = ix1 o :=
  funext fun a => Fin.ext (by match a with | ⟨0, _⟩ => rfl)

/-- The reference's result is the layer of its arguments and its decompressed weight matrix. -/
theorem reference_is_layer (x0 : (⟨S4x2048x4096, .f32⟩ : BufTy).Contents (Elt Ideal)) (x1 : (⟨S256x8, .f32⟩ : BufTy).Contents (Elt Ideal))
    (x2 : (⟨S2097152, .i32⟩ : BufTy).Contents (Elt Ideal)) (x3 x4 : (⟨S4096, .f32⟩ : BufTy).Contents (Elt Ideal)) :
    val_main_v14 (F := Ideal) x0 x1 x2 x3 x4 = layer x0 x3 (val_main_v7 (F := Ideal) x1 x2) x4 := by
  funext i
  obtain ⟨b, s, o, rfl⟩ : ∃ (b : Fin 4) (s : Fin 2048) (o : Fin 4096), i = ix3 b s o := ⟨i 0, i 1, i 2, eq_ix3 i⟩
  rw [val_main_v14_apply, val_main_v11_apply, val_main_v13_apply, val_main_v12_apply, bias_entry, layer_apply]
  show (∑ k : Fin 4096, _) + x4 (ix1 o) = (∑ k : Fin 4096, _) + x4 (ix1 o)
  refine congrArg (· + x4 (ix1 o)) (Finset.sum_congr rfl fun k _ => ?_)
  rw [left_entry, right_entry, val_main_v10_apply, val_main_v9_apply, val_main_v8_apply, scale_entry]
  rfl

end Cert.ReferenceIdeal.RefValue

end
-- ==== Proof.lean ====
/-
  The certificate: a vector-quantised linear layer, computed tile by tile, against its one-line reference.

  Both programs decompress the same weight matrix W from the codebook (the same gather of the same wrapped labels) and
  compute, for input x, scale and bias, the array whose entry (b, s, o) is the sum over the 4096 features k of
  (x b s k · scale k) · W o k, plus bias o. The reference does it with one matrix product. The kernel flattens (b, s) into
  8192 rows, cuts rows, output features and features into tiles of 2048, 2048 and 512, accumulates the eight feature
  tiles' products into a scratch accumulator that starts from zero, adds the bias after the eighth, and reshapes back. Over
  the extended reals the rounding of the operands to a narrower format is the identity and addition is commutative and
  associative without side conditions, so the eight partial sums are the one sum: the two results are equal, entry by entry,
  with no use of the finiteness of the inputs. The idealization rewrote nothing, so it is preserved trivially; the three
  programs terminate without fault and leave their arguments unchanged.
-/
import proofs.«130416_j23802708754444_2_alg».proof.Defs
import proofs.«130416_j23802708754444_2_alg».proof.Proof.Gen.Kernel
import proofs.«130416_j23802708754444_2_alg».proof.Proof.Gen.Kernel.Frame
import proofs.«130416_j23802708754444_2_alg».proof.Proof.Gen.KernelIdeal
import proofs.«130416_j23802708754444_2_alg».proof.Proof.Gen.KernelIdeal.Frame
import proofs.«130416_j23802708754444_2_alg».proof.Proof.Gen.ReferenceIdeal
import proofs.«130416_j23802708754444_2_alg».proof.Proof.Gen.ReferenceIdeal.Run
import proofs.«130416_j23802708754444_2_alg».proof.Proof.Gen.ReferenceIdeal.Read
import proofs.«130416_j23802708754444_2_alg».proof.Proof.Gen.Pre_finite_inputs
import proofs.«130416_j23802708754444_2_alg».proof.Proof.KernelValue
import proofs.«130416_j23802708754444_2_alg».proof.Proof.RefValue
import Idealize.ShloMosaic.Adequacy
import Idealize.ShloMosaic.Init

noncomputable section

namespace Cert.Proof

open Idealize.ShloMosaic Idealize.ShloMosaic.TcCoe Idealize.SL.Sem

/-- The two programs decompress the weight matrix by the same operations of the codebook and the labels. -/
theorem weights_agree (cen : (⟨Cert.KernelIdeal.S256x8, .f32⟩ : BufTy).Contents (Elt Ideal))
    (lab : (⟨Cert.KernelIdeal.S2097152, .i32⟩ : BufTy).Contents (Elt Ideal)) :
    Cert.ReferenceIdeal.Read.val_main_v7 (F := Ideal) cen lab = Cert.KernelIdeal.Body.weights cen lab := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the arguments. -/
theorem algebraic : Cert.algebraic_KernelIdeal_ReferenceIdeal := by
  intro m ρ m' ρ' _ hagree
  refine ⟨fun c => Cert.Spec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (Cert.KernelIdeal.Body.weights (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Body.result_is_layer m c), (h c).2⟩)
      (Cert.KernelIdeal.Body.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v14_eq, Cert.ReferenceIdeal.RefValue.reference_is_layer,
      (hagree c).1, (hagree c).2.1, (hagree c).2.2.1, (hagree c).2.2.2.1, (hagree c).2.2.2.2, weights_agree]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
